-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : IVec S8192x8192 32) (main_arg2 : FVec F S64x8192 .f32) (main_arg3 : IVec S64x8192 32) (main_arg4 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩
abbrev S32 : Shape := ⟨1, ![32]⟩
abbrev S32x1 : Shape := ⟨2, ![32, 1]⟩
abbrev S1x8192 : Shape := ⟨2, ![1, 8192]⟩
abbrev S32x1024 : Shape := ⟨2, ![32, 1024]⟩
abbrev S1024x4096 : Shape := ⟨2, ![1024, 4096]⟩
abbrev S8x4096 : Shape := ⟨2, ![8, 4096]⟩
abbrev S1x4096 : Shape := ⟨2, ![1, 4096]⟩
abbrev S32x4096 : Shape := ⟨2, ![32, 4096]⟩
abbrev S128x4096 : Shape := ⟨2, ![128, 4096]⟩
abbrev S32x128 : Shape := ⟨2, ![32, 128]⟩

abbrev nBuf : Space → Nat
  | .hbm => 29
  | .vmem => 14
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S64x8192, .f32⟩
  | .hbm, ⟨3, _⟩ => ⟨S64x8192, .i32⟩
  | .hbm, ⟨4, _⟩ => ⟨S8192, .f32⟩
  | .hbm, ⟨5, _⟩ => ⟨S32x8192, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x8192, .f32⟩
  | .hbm, ⟨22, _⟩ => ⟨S32x8192, .f32⟩
  | .hbm, ⟨23, _⟩ => ⟨S_, .f32⟩
  | .hbm, ⟨24, _⟩ => ⟨S32x8192, .f32⟩
  | .hbm, ⟨25, _⟩ => ⟨S32x8192, .f32⟩
  | .hbm, ⟨26, _⟩ => ⟨S32x8192, .bf16⟩
  | .hbm, ⟨27, _⟩ => ⟨S1x8192, .f32⟩
  | .hbm, ⟨28, _⟩ => ⟨S32x8192, .f32⟩
  | .local _ .vmem, ⟨0, _⟩ => ⟨S32x1024, .bf16⟩
  | .local _ .vmem, ⟨1, _⟩ => ⟨S32x1024, .bf16⟩
  | .local _ .vmem, ⟨2, _⟩ => ⟨S1024x4096, .i32⟩
  | .local _ .vmem, ⟨3, _⟩ => ⟨S1024x4096, .i32⟩
  | .local _ .vmem, ⟨4, _⟩ => ⟨S8x4096, .f32⟩
  | .local _ .vmem, ⟨5, _⟩ => ⟨S8x4096, .f32⟩
  | .local _ .vmem, ⟨6, _⟩ => ⟨S8x4096, .i32⟩
  | .local _ .vmem, ⟨7, _⟩ => ⟨S8x4096, .i32⟩
  | .local _ .vmem, ⟨8, _⟩ => ⟨S1x4096, .f32⟩
  | .local _ .vmem, ⟨9, _⟩ => ⟨S1x4096, .f32⟩
  | .local _ .vmem, ⟨10, _⟩ => ⟨S32x1, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v147 : BitVec 1 := Scalar.cmpi .eq arg1 c7_i32
  let v148 : BitVec 32 := Scalar.extui v147
  let c0_i32_89 : BitVec 32 := 0#32
  let v149 : BitVec 1 := Scalar.cmpi .ne v148 c0_i32_89
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  bitsLt_bf16_f32 : FTy.bits .bf16 < FTy.bits .f32
  shapeCasts_S8192_S1x8192 : S8192.ShapeCasts S1x8192
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1024x4096_S128x4096_0_0 : ∀ a, (![0, 0] : Fin 2 → Nat) a + S128x4096.size a ≤ S1024x4096.size a
  h_S128x4096 : 0 < S128x4096.numel
  inb_S8x4096_S1x4096_0_0 : ∀ a, (![0, 0] : Fin 2 → Nat) a + S1x4096.size a ≤ S8x4096.size a
  h_S1x4096 : 0 < S1x4096.numel
  broadcasts_S1x4096_S128x4096 : S1x4096.Broadcasts S128x4096
  inb_S32x1024_S32x128_0_0 : ∀ a, (![0, 0] : Fin 2 → Nat) a + S32x128.size a ≤ S32x1024.size a
  h_S32x128 : 0 < S32x128.numel
  shapeCasts_S32x128_S32x128 : S32x128.ShapeCasts S32x128
  inb_S1024x4096_S128x4096_128_0 : ∀ a, (![128, 0] : Fin 2 → Nat) a + S128x4096.size a ≤ S1024x4096.size a
  inb_S8x4096_S1x4096_1_0 : ∀ a, (![1, 0] : Fin 2 → Nat) a + S1x4096.size a ≤ S8x4096.size a
  inb_S32x1024_S32x128_0_128 : ∀ a, (![0, 128] : Fin 2 → Nat) a + S32x128.size a ≤ S32x1024.size a
  inb_S1024x4096_S128x4096_256_0 : ∀ a, (![256, 0] : Fin 2 → Nat) a + S128x4096.size a ≤ S1024x4096.size a
  inb_S8x4096_S1x4096_2_0 : ∀ a, (![2, 0] : Fin 2 → Nat) a + S1x4096.size a ≤ S8x4096.size a
  inb_S32x1024_S32x128_0_256 : ∀ a, (![0, 256] : Fin 2 → Nat) a + S32x128.size a ≤ S32x1024.size a
  inb_S1024x4096_S128x4096_384_0 : ∀ a, (![384, 0] : Fin 2 → Nat) a + S128x4096.size a ≤ S1024x4096.size a
  inb_S8x4096_S1x4096_3_0 : ∀ a, (![3, 0] : Fin 2 → Nat) a + S1x4096.size a ≤ S8x4096.size a
  inb_S32x1024_S32x128_0_384 : ∀ a, (![0, 384] : Fin 2 → Nat) a + S32x128.size a ≤ S32x1024.size a
  inb_S1024x4096_S128x4096_512_0 : ∀ a, (![512, 0] : Fin 2 → Nat) a + S128x4096.size a ≤ S1024x4096.size a
  inb_S8x4096_S1x4096_4_0 : ∀ a, (![4, 0] : Fin 2 → Nat) a + S1x4096.size a ≤ S8x4096.size a
  inb_S32x1024_S32x128_0_512 : ∀ a, (![0, 512] : Fin 2 → Nat) a + S32x128.size a ≤ S32x1024.size a
  inb_S1024x4096_S128x4096_640_0 : ∀ a, (![640, 0] : Fin 2 → Nat) a + S128x4096.size a ≤ S1024x4096.size a
  inb_S8x4096_S1x4096_5_0 : ∀ a, (![5, 0] : Fin 2 → Nat) a + S1x4096.size a ≤ S8x4096.size a
  inb_S32x1024_S32x128_0_640 : ∀ a, (![0, 640] : Fin 2 → Nat) a + S32x128.size a ≤ S32x1024.size a
  inb_S1024x4096_S128x4096_768_0 : ∀ a, (![768, 0] : Fin 2 → Nat) a + S128x4096.size a ≤ S1024x4096.size a
  inb_S8x4096_S1x4096_6_0 : ∀ a, (![6, 0] : Fin 2 → Nat) a + S1x4096.size a ≤ S8x4096.size a
  inb_S32x1024_S32x128_0_768 : ∀ a, (![0, 768] : Fin 2 → Nat) a + S32x128.size a ≤ S32x1024.size a
  inb_S1024x4096_S128x4096_896_0 : ∀ a, (![896, 0] : Fin 2 → Nat) a + S128x4096.size a ≤ S1024x4096.size a
  inb_S8x4096_S1x4096_7_0 : ∀ a, (![7, 0] : Fin 2 → Nat) a + S1x4096.size a ≤ S8x4096.size a
  inb_S32x1024_S32x128_0_896 : ∀ a, (![0, 896] : Fin 2 → Nat) a + S32x128.size a ≤ S32x1024.size a
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S1x4096_S1x4096_0_0 : ∀ a, (![0, 0] : Fin 2 → Nat) a + S1x4096.size a ≤ S1x4096.size a
  shapeCasts_S1x4096_S1x4096 : S1x4096.ShapeCasts S1x4096
  broadcasts_S1x4096_S32x4096 : S1x4096.Broadcasts S32x4096
  dot_S32x128_S128x4096_S32x4096_1_0_0_1_n_n_wf : DotDims.WF S32x128 S128x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x8192.size a
  hwx0_0 : ∀ i : grid0.Coords, EltTy.bits .bf16 = 32 ∨ (Rect.block (s := S32x8192) S32x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x8192.size a
  hwx0_1 : ∀ i : grid0.Coords, EltTy.bits .i32 = 32 ∨ (Rect.block (s := S8192x8192) S1024x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S64x8192.size a
  hwx0_2 : ∀ i : grid0.Coords, EltTy.bits .f32 = 32 ∨ (Rect.block (s := S64x8192) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S64x8192.size a
  hwx0_3 : ∀ i : grid0.Coords, EltTy.bits .i32 = 32 ∨ (Rect.block (s := S64x8192) S8x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x8192.size a
  hwx0_4 : ∀ i : grid0.Coords, EltTy.bits .f32 = 32 ∨ (Rect.block (s := S1x8192) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x4096.size a ≤ S32x8192.size a
  hwx0_6 : ∀ i : grid0.Coords, EltTy.bits .f32 = 32 ∨ (Rect.block (s := S32x8192) S32x4096.size (cc0_transform_6 i) (hinb0_6 i)).WholeWords (EltTy.packing .f32)

variable [Facts₀]

def dot_S32x128_S128x4096_S32x4096_1_0_0_1_n_n : DotDims S32x128 S128x4096 S32x4096 where
  lhsContracting := [1]
  rhsContracting := [0]
  lhsNonContracting := [0]
  rhsNonContracting := [1]
  lhsBatch := []
  rhsBatch := []
  wf := dot_S32x128_S128x4096_S32x4096_1_0_0_1_n_n_wf

abbrev win0_0 : Pipeline.Window sig grid0 :=
  Pipeline.Window.ofSpec (Memref.whole main_v11) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S32x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192 : Shape := ⟨2, ![32, 8192]⟩
abbrev S8192x8192 : Shape := ⟨2, ![8192, 8192]⟩
abbrev S64x8192 : Shape := ⟨2, ![64, 8192]⟩
abbrev S8192 : Shape := ⟨1, ![8192]⟩
abbrev S_ : Shape := ⟨0, ![]⟩
abbrev S32 : Shape := ⟨1, ![32]⟩
abbrev S32x1 : Shape := ⟨2, ![32, 1]⟩
abbrev S64x128x8192 : Shape := ⟨3, ![64, 128, 8192]⟩
abbrev S64x1x8192 : Shape := ⟨3, ![64, 1, 8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .i32⟩
  | .hbm, ⟨2, _⟩ => ⟨S64x8192, .f32⟩
  | .hbm, ⟨3, _⟩ => ⟨S64x8192, .i32⟩
  | .hbm, ⟨4, _⟩ => ⟨S8192, .f32⟩
  | .hbm, ⟨5, _⟩ => ⟨S32x8192, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x8192, .f32⟩
  | .hbm, ⟨22, _⟩ => ⟨S32x8192, .f32⟩
  | .hbm, ⟨23, _⟩ => ⟨S_, .f32⟩
  | .hbm, ⟨24, _⟩ => ⟨S32x8192, .f32⟩
  | .hbm, ⟨25, _⟩ => ⟨S32x8192, .f32⟩
  | .hbm, ⟨26, _⟩ => ⟨S64x128x8192, .i32⟩
  | .hbm, ⟨27, _⟩ => ⟨S64x128x8192, .f32⟩
  | .hbm, ⟨28, _⟩ => ⟨S64x1x8192, .i32⟩
  | .hbm, ⟨29, _⟩ => ⟨S64x1x8192, .f32⟩
  | .hbm, ⟨30, _⟩ => ⟨S64x128x8192, .f32⟩
  | .hbm, ⟨31, _⟩ => ⟨S64x128x8192, .f32⟩
  | .hbm, ⟨32, _⟩ => ⟨S64x1x8192, .f32⟩
  | .hbm, ⟨33, _⟩ => ⟨S64x128x8192, .f32⟩
  | .hbm, ⟨34, _⟩ => ⟨S64x128x8192, .f32⟩
  | .hbm, ⟨35, _⟩ => ⟨S8192x8192, .f32⟩
  | .hbm, ⟨36, _⟩ => ⟨S32x8192, .f32⟩
  | .hbm, ⟨37, _⟩ => ⟨S32x8192, .f32⟩
  | .hbm, ⟨38, _⟩ => ⟨S32x8192, .f32⟩
  | .hbm, ⟨39, _⟩ => ⟨S1x8192, .f32⟩
  | .hbm, ⟨40, _⟩ => ⟨S32x8192, .f32⟩
  | .hbm, ⟨41, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  shapeCasts_S8192x8192_S64x128x8192 : S8192x8192.ShapeCasts S64x128x8192
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  dot_S32x8192_S8192x8192_S32x8192_1_0_0_1_n_n_wf : DotDims.WF S32x8192 S8192x8192 S32x8192 [1] [0] [0] [1] [] []

variable [Facts₀]

def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«172037_j54468775248391_2_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Spec.lean ====
/-
  The quantized matrix product, as one function of its inputs.

  An activation matrix a [32, 8192] (already quantized: integer codes kept as floats) is multiplied by a weight
  matrix that is stored as 4-bit integer codes q [8192, 8192] with one scale and one zero point per group of 128
  consecutive rows and per column: sc, zp [64, 8192]. The weight at (k, n) is (q[k, n] − zp[k / 128, n]) · sc[k / 128, n].
  The product's row r is then rescaled by that row's activation scale s[r] and the bias b[n] is added:

      out[r, n] = (∑ₖ a[r, k] · w[k, n]) · s[r] + b[n].

  Everything is read on the extended reals: an integer code is the real number it denotes, the arithmetic is exact.
  The contraction over k can be accumulated group by group (64 groups of 128 indices); the running total after G groups
  is `partialSum … G`, it grows by eight groups at a time (`partialSum_add_eight`), starts at zero and ends, after all 64
  groups, at the whole contraction (`partialSum_all`). Only the commutative-monoid laws of addition are used, so nothing
  here needs the inputs to be finite.
-/
import Idealize.ShloMosaic.PureOps.Ideal
import Idealize.ShloMosaic.Lib.ValueIdx
import proofs.«172037_j54468775248391_2_alg».proof.Proof.LibBlockRuns

noncomputable section

namespace Cert.QuantGemm

open Idealize.ShloMosaic Idealize.ShloMosaic.ValueIdx Cert.LibBlockRuns
open scoped BigOperators

/-- The shapes, spelt by their extents. -/
abbrev A32x8192 : Shape := ⟨2, ![32, 8192]⟩
abbrev A8192x8192 : Shape := ⟨2, ![8192, 8192]⟩
abbrev A64x8192 : Shape := ⟨2, ![64, 8192]⟩
abbrev A32x1 : Shape := ⟨2, ![32, 1]⟩
abbrev A8192 : Shape := ⟨1, ![8192]⟩

/-- The group of contraction index k: the row of the scale and zero-point tables that serves it. -/
def grp (k : Fin 8192) : Fin 64 := ⟨k.val / 128, by have := k.isLt; omega⟩

/-- An integer code as the extended real it denotes. -/
abbrev code (w : BitVec 32) : EReal := ((w.toInt : ℝ) : EReal)

/-- The dequantized weight at (k, n): (q[k, n] − zp[k / 128, n]) · sc[k / 128, n]. -/
def weight (q : A8192x8192.Idx → BitVec 32) (sc : A64x8192.Idx → EReal) (zp : A64x8192.Idx → BitVec 32)
    (k n : Fin 8192) : EReal :=
  (code (q (ix2 k n)) - code (zp (ix2 (grp k) n))) * sc (ix2 (grp k) n)

/-- One term of the contraction at output (r, n): a[r, k] · w[k, n]. -/
def term (a : A32x8192.Idx → EReal) (q : A8192x8192.Idx → BitVec 32) (sc : A64x8192.Idx → EReal)
    (zp : A64x8192.Idx → BitVec 32) (r : Fin 32) (n : Fin 8192) (k : Fin 8192) : EReal :=
  a (ix2 r k) * weight q sc zp k n

/-- The result: the contraction, rescaled by the row's activation scale, plus the bias. -/
def out (a : A32x8192.Idx → EReal) (s : A32x1.Idx → EReal) (q : A8192x8192.Idx → BitVec 32)
    (sc : A64x8192.Idx → EReal) (zp : A64x8192.Idx → BitVec 32) (b : A8192.Idx → EReal) : A32x8192.Idx → EReal :=
  fun i => (∑ k : Fin 8192, term a q sc zp (i 0) (i 1) k) * s (ix2 (i 0) 0) + b (ix1 (i 1))

/-- The sum of one group's 128 terms (zero past the last group). -/
def groupSum (a : A32x8192.Idx → EReal) (q : A8192x8192.Idx → BitVec 32) (sc : A64x8192.Idx → EReal)
    (zp : A64x8192.Idx → BitVec 32) (r : Fin 32) (n : Fin 8192) (G : ℕ) : EReal :=
  block 64 128 rfl (term a q sc zp r n) G

/-- The running total of the contraction after the first G groups. -/
def partialSum (a : A32x8192.Idx → EReal) (q : A8192x8192.Idx → BitVec 32) (sc : A64x8192.Idx → EReal)
    (zp : A64x8192.Idx → BitVec 32) (r : Fin 32) (n : Fin 8192) (G : ℕ) : EReal :=
  ∑ g ∈ Finset.range G, groupSum a q sc zp r n g

variable (a : A32x8192.Idx → EReal) (q : A8192x8192.Idx → BitVec 32) (sc : A64x8192.Idx → EReal)
  (zp : A64x8192.Idx → BitVec 32) (r : Fin 32) (n : Fin 8192)

/-- Before any group the running total is zero. -/
theorem partialSum_zero : partialSum a q sc zp r n 0 = 0 := Finset.sum_range_zero _

/-- Eight more groups: the running total grows by their eight sums. -/
theorem partialSum_add_eight (G : ℕ) :
    partialSum a q sc zp r n (G + 8) = partialSum a q sc zp r n G + ∑ g : Fin 8, groupSum a q sc zp r n (G + g.val) := by
  unfold partialSum
  rw [Finset.sum_range_add]
  exact congrArg (fun z => _ + z) (Finset.sum_range fun x => groupSum a q sc zp r n (G + x))

/-- After all 64 groups the running total is the whole contraction. -/
theorem partialSum_all : partialSum a q sc zp r n 64 = ∑ k : Fin 8192, term a q sc zp r n k :=
  sum_range_block (K := 64) (B := 128) rfl _

/-- A group's sum, written out: its 128 terms share the group's scale and zero point. -/
theorem groupSum_eq (G : ℕ) (hG : G < 64) :
    groupSum a q sc zp r n G
      = ∑ l : Fin 128, a (ix2 r ⟨128 * G + l.val, by have := l.isLt; omega⟩)
          * ((code (q (ix2 ⟨128 * G + l.val, by have := l.isLt; omega⟩ n)) - code (zp (ix2 ⟨G, hG⟩ n))) * sc (ix2 ⟨G, hG⟩ n)) := by
  unfold groupSum
  rw [block_of_lt 64 128 rfl _ G hG]
  refine Finset.sum_congr rfl fun l _ => ?_
  have hg : grp ⟨128 * G + l.val, by have := l.isLt; omega⟩ = ⟨G, hG⟩ := Fin.ext (by
    show (128 * G + l.val) / 128 = G
    have := l.isLt
    omega)
  unfold term weight
  rw [hg]

end Cert.QuantGemm

end
-- ==== Proof.GroupStep.lean ====
/-
  One group's step of the accumulation, read at an index.

  The kernel's body visits the eight groups of its K-tile in order. For each group it loads the group's 128 rows of
  integer codes q [128, 4096], the group's one row of zero points z [1, 4096] and of scales s [1, 4096], the matching 128
  columns of the activations x [32, 128], and the accumulator acc [32, 4096], and stores back

      acc + x · ((q − z) · s),

  the zero points and scales broadcast down the 128 rows, the product a matrix product into a zero accumulator. The
  printed body is cut at fixed positions, so the eight groups' stores are spelt over differently grouped intermediate
  values; every one of them is the first group's term of that group's loads (the `*_eq` lemmas: they only regroup
  bindings, for any float type). At the ideal values the step at (r, n) is

      acc[r, n] + ∑ₗ x[r, l] · ((q[l, n] − z[0, n]) · s[0, n]),

  a plain sum of 128 products: the integer codes are the reals they denote, narrowing to a 16-bit float is the identity,
  and a matrix product into the zero accumulator is the sum of products. The reset stores zero, and the last store of
  the last K-tile rescales by the row's activation scale and adds the bias.
-/
import proofs.«172037_j54468775248391_2_alg».proof.Proof.Gen.KernelIdeal.Skeleton
import proofs.«172037_j54468775248391_2_alg».proof.Proof.LibPlainDot
import proofs.«172037_j54468775248391_2_alg».proof.Proof.LibRows
import proofs.«172037_j54468775248391_2_alg».proof.Proof.LibColumns
import proofs.«172037_j54468775248391_2_alg».proof.Proof.Spec
import Idealize.ShloMosaic.Lib.Pipeline.Value

noncomputable section

namespace Cert.KernelIdeal.GroupStep

open Cert.KernelIdeal Cert.KernelIdeal.Gen Idealize.ShloMosaic Idealize.ShloMosaic.ValueIdx Cert.QuantGemm
open scoped BigOperators

section Regroup

variable {F : FTy → Type} [FloatOps F]
variable (qv : Vec F S128x4096 .i32) (zv : Vec F S1x4096 .i32) (sv : Vec F S1x4096 .f32) (xv : Vec F S32x128 .bf16)
  (acc : Vec F S32x4096 .f32)

/-- Group 1: the dequantized tile and the activation columns are bound before the store's own term. -/
theorem pay7_eq : k0_pay7 (k0_pay5 qv zv sv) (k0_pay6 xv) acc = k0_pay4 qv zv sv xv acc := rfl
/-- Group 2. -/
theorem pay8_eq : k0_pay8 qv zv sv xv acc = k0_pay4 qv zv sv xv acc := rfl
/-- Group 3: the dequantized tile is bound first. -/
theorem pay10_eq : k0_pay10 (k0_pay9 qv zv sv) xv acc = k0_pay4 qv zv sv xv acc := rfl
/-- Group 4. -/
theorem pay11_eq : k0_pay11 qv zv sv xv acc = k0_pay4 qv zv sv xv acc := rfl
/-- Group 5: the three conversions are bound first. -/
theorem pay15_eq : k0_pay15 (k0_pay12 qv) (k0_pay13 zv) (k0_pay14 sv) xv acc = k0_pay4 qv zv sv xv acc := rfl
/-- Group 6. -/
theorem pay16_eq : k0_pay16 qv zv sv xv acc = k0_pay4 qv zv sv xv acc := rfl
/-- Group 7: the two integer conversions are bound first. -/
theorem pay1_eq : k0_pay1 (k0_pay17 qv) (k0_pay18 zv) sv xv acc = k0_pay4 qv zv sv xv acc := rfl

end Regroup

/-- A group's step at (r, n), at the ideal values: the accumulator's entry plus the group's 128 products. -/
theorem pay4_apply (qv : Vec Ideal S128x4096 .i32) (zv : Vec Ideal S1x4096 .i32) (sv : FVec Ideal S1x4096 .f32)
    (xv : FVec Ideal S32x128 .bf16) (acc : FVec Ideal S32x4096 .f32) (r : Fin 32) (n : Fin 4096) :
    k0_pay4 (F := Ideal) qv zv sv xv acc (ix2 r n)
      = acc (ix2 r n) + ∑ l : Fin 128, xv (ix2 r l) * ((code (qv (ix2 l n)) - code (zv (ix2 0 n))) * sv (ix2 0 n)) := by
  unfold k0_pay4
  refine (congrFun (shapeCast_self _ _) (ix2 r n)).trans ?_
  refine congrArg (fun z : EReal => acc (ix2 r n) + z) ?_
  refine (Cert.Lib.PlainDot.matmul_plain_zero_apply (M := 32) (K := 128) (N := 4096) none _ _ r n).trans ?_
  refine Finset.sum_congr rfl fun l _ => ?_
  refine congrArg₂ (fun u v : EReal => u * v) (congrFun (shapeCast_self _ _) (ix2 r l)) ?_
  refine congrArg₂ (fun u v : EReal => u * v) ?_ ?_
  · exact congrArg (fun v : EReal => code (qv (ix2 l n)) - v)
      ((Cert.Lib.Rows.broadcastTo_row_apply (R := 128) (C := 4096) _ _ l n).trans rfl)
  · exact (Cert.Lib.Rows.broadcastTo_row_apply (R := 128) (C := 4096) _ _ l n).trans rfl

/-- The reset's store is zero everywhere. -/
theorem pay3_apply (i : S32x4096.Idx) : k0_pay3 (F := Ideal) i = 0 := by
  unfold k0_pay3
  refine (congrFun (shapeCast_self _ _) i).trans ?_
  exact Ideal.ofBits_zero_f32

/-- The last store at (r, n): the accumulator's entry times the row's activation scale, plus the bias at n. -/
theorem pay2_apply (acc : FVec Ideal S32x4096 .f32) (sx : FVec Ideal S32x1 .f32) (bias : FVec Ideal S1x4096 .f32)
    (r : Fin 32) (n : Fin 4096) :
    k0_pay2 (F := Ideal) acc sx bias (ix2 r n) = acc (ix2 r n) * sx (ix2 r 0) + bias (ix2 0 n) := by
  unfold k0_pay2
  refine congrArg₂ (fun u v : EReal => u + v) (congrArg (fun v : EReal => acc (ix2 r n) * v) ?_) ?_
  · exact (Cert.Columns.broadcastTo_a1_ab_apply (a := 32) (b := 4096) _ _ r n 0).trans
      (congrFun (shapeCast_self _ _) (ix2 r 0))
  · exact (Cert.Lib.Rows.broadcastTo_row_apply (R := 32) (C := 4096) _ _ r n).trans
      (congrFun (shapeCast_self _ _) (ix2 0 n))

end Cert.KernelIdeal.GroupStep

end
-- ==== Proof.Pieces.lean ====
/-
  What each case of the body leaves behind, as values.

  The body runs in one of three cases, by the position k of the grid point on the reduction axis: the first point of a
  column tile (k = 0) resets the accumulator and then adds its eight groups; a middle point adds its eight groups to
  what the point before left; the last point (k = 7) does the same and then writes the output block — the accumulator
  rescaled by the rows' activation scales, plus the bias. Each group's store covers the whole accumulator, and each
  load of the accumulator reads back the store before it, so what a case leaves is a chain of eight group steps
  (`tile`) over the reset's zero (first point) or over what the point before left (other points).
  These are equations between terms, for any float type: nothing is computed here.
-/
import proofs.«172037_j54468775248391_2_alg».proof.Proof.Gen.KernelIdeal.Frame
import proofs.«172037_j54468775248391_2_alg».proof.Proof.GroupStep

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- One group's step on the blocks of a grid point: group g of the K-tile reads rows ok … ok + 127 of the code block
    x1, row g of the zero-point block x3 and of the scale block x2, and columns ok … ok + 127 of the activation block
    x0 (ok = 128 g), and adds their product to the accumulator. -/
def step (g ok : Nat) (h1 : ∀ a, ![ok, 0] a + ![128, 4096] a ≤ S1024x4096.size a)
    (h3 : ∀ a, ![g, 0] a + ![1, 4096] a ≤ S8x4096.size a) (h0 : ∀ a, ![0, ok] a + ![32, 128] a ≤ S32x1024.size a)
    (x0 : Vec F S32x1024 .bf16) (x1 : Vec F S1024x4096 .i32) (x2 : Vec F S8x4096 .f32) (x3 : Vec F S8x4096 .i32)
    (acc : Vec F S32x4096 .f32) : FVec F S32x4096 .f32 :=
  k0_pay4 (View.ld x1 (Rect.unit ![ok, 0] ![128, 4096] h1)) (View.ld x3 (Rect.unit ![g, 0] ![1, 4096] h3))
    (View.ld x2 (Rect.unit ![g, 0] ![1, 4096] h3)) (View.ld x0 (Rect.unit ![0, ok] ![32, 128] h0)) acc

/-- A grid point's eight group steps, in order, over the accumulator it starts from. -/
def tile (x0 : Vec F S32x1024 .bf16) (x1 : Vec F S1024x4096 .i32) (x2 : Vec F S8x4096 .f32) (x3 : Vec F S8x4096 .i32)
    (acc : Vec F S32x4096 .f32) : FVec F S32x4096 .f32 :=
  step 7 896 inb_S1024x4096_S128x4096_896_0 inb_S8x4096_S1x4096_7_0 inb_S32x1024_S32x128_0_896 x0 x1 x2 x3
      (step 6 768 inb_S1024x4096_S128x4096_768_0 inb_S8x4096_S1x4096_6_0 inb_S32x1024_S32x128_0_768 x0 x1 x2 x3
      (step 5 640 inb_S1024x4096_S128x4096_640_0 inb_S8x4096_S1x4096_5_0 inb_S32x1024_S32x128_0_640 x0 x1 x2 x3
      (step 4 512 inb_S1024x4096_S128x4096_512_0 inb_S8x4096_S1x4096_4_0 inb_S32x1024_S32x128_0_512 x0 x1 x2 x3
      (step 3 384 inb_S1024x4096_S128x4096_384_0 inb_S8x4096_S1x4096_3_0 inb_S32x1024_S32x128_0_384 x0 x1 x2 x3
      (step 2 256 inb_S1024x4096_S128x4096_256_0 inb_S8x4096_S1x4096_2_0 inb_S32x1024_S32x128_0_256 x0 x1 x2 x3
      (step 1 128 inb_S1024x4096_S128x4096_128_0 inb_S8x4096_S1x4096_1_0 inb_S32x1024_S32x128_0_128 x0 x1 x2 x3
      (step 0 0 inb_S1024x4096_S128x4096_0_0 inb_S8x4096_S1x4096_0_0 inb_S32x1024_S32x128_0_0 x0 x1 x2 x3
      (acc))))))))

/-- The first point of a column tile leaves its eight group steps over the reset's zero. -/
theorem scratch_first (c : Dev nD) (i : grid0.Coords) (arg2 : Memref sig .tc .vmem S32x1024 .bf16) (harg2 : arg2.IsWhole) (arg3 : Memref sig .tc .vmem S1024x4096 .i32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S1x4096 .f32) (harg6 : arg6.IsWhole) (arg7 : Memref sig .tc .vmem S32x1 .f32) (harg7 : arg7.IsWhole) (arg8 : Memref sig .tc .vmem S32x4096 .f32) (harg8 : arg8.IsWhole) (arg9 : Memref sig .tc .vmem S32x4096 .f32) (harg9 : arg9.IsWhole) (hc0 : cond0_0 i) (hc1 : ¬cond0_1 i) (x0 : Vec F S32x1024 .bf16) (x1 : Vec F S1024x4096 .i32) (x2 : Vec F S8x4096 .f32) (x3 : Vec F S8x4096 .i32) (x4 : Vec F S1x4096 .f32) (x5 : Vec F S32x1 .f32) :
    sout0_A_0 c i arg2 harg2 arg3 harg3 arg4 harg4 arg5 harg5 arg6 harg6 arg7 harg7 arg8 harg8 arg9 harg9 hc0 hc1 x0 x1 x2 x3 x4 x5 = tile x0 x1 x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x4096) hz]
  simp only [View.readCov_cons_toLoadRect, View.readAt_eq_ld, harg2.read_unread, harg3.read_unread, harg4.read_unread,
    harg5.read_unread, harg6.read_unread, harg7.read_unread, harg9.read_unread, View.ld_unit_zero (S := S32x4096) hz, View.ld_unit_zero (S := S32x1) hz,
    View.ld_unit_zero (S := S1x4096) hz, GroupStep.pay1_eq, GroupStep.pay16_eq, GroupStep.pay15_eq, GroupStep.pay11_eq, GroupStep.pay10_eq,
    GroupStep.pay8_eq, GroupStep.pay7_eq]
  rfl

/-- A middle point leaves its eight group steps over what the point before left. -/
theorem scratch_middle (c : Dev nD) (i : grid0.Coords) (arg2 : Memref sig .tc .vmem S32x1024 .bf16) (harg2 : arg2.IsWhole) (arg3 : Memref sig .tc .vmem S1024x4096 .i32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S1x4096 .f32) (harg6 : arg6.IsWhole) (arg7 : Memref sig .tc .vmem S32x1 .f32) (harg7 : arg7.IsWhole) (arg8 : Memref sig .tc .vmem S32x4096 .f32) (harg8 : arg8.IsWhole) (arg9 : Memref sig .tc .vmem S32x4096 .f32) (harg9 : arg9.IsWhole) (hc0 : ¬cond0_0 i) (hc1 : ¬cond0_1 i) (x0 : Vec F S32x1024 .bf16) (x1 : Vec F S1024x4096 .i32) (x2 : Vec F S8x4096 .f32) (x3 : Vec F S8x4096 .i32) (x4 : Vec F S1x4096 .f32) (x5 : Vec F S32x1 .f32) (xs0 : Vec F S32x4096 .f32) :
    sout0_B_0 c i arg2 harg2 arg3 harg3 arg4 harg4 arg5 harg5 arg6 harg6 arg7 harg7 arg8 harg8 arg9 harg9 hc0 hc1 x0 x1 x2 x3 x4 x5 xs0 = tile x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_cons_unit_zero (S := S32x4096) hz]
  simp only [View.readCov_cons_toLoadRect, View.readAt_eq_ld, harg2.read_unread, harg3.read_unread, harg4.read_unread,
    harg5.read_unread, harg6.read_unread, harg7.read_unread, harg9.read_unread, View.ld_unit_zero (S := S32x4096) hz, View.ld_unit_zero (S := S32x1) hz,
    View.ld_unit_zero (S := S1x4096) hz, GroupStep.pay1_eq, GroupStep.pay16_eq, GroupStep.pay15_eq, GroupStep.pay11_eq, GroupStep.pay10_eq,
    GroupStep.pay8_eq, GroupStep.pay7_eq]
  rfl

/-- The last point leaves, in the accumulator, its eight group steps over what the point before left, -/
theorem scratch_last (c : Dev nD) (i : grid0.Coords) (arg2 : Memref sig .tc .vmem S32x1024 .bf16) (harg2 : arg2.IsWhole) (arg3 : Memref sig .tc .vmem S1024x4096 .i32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S1x4096 .f32) (harg6 : arg6.IsWhole) (arg7 : Memref sig .tc .vmem S32x1 .f32) (harg7 : arg7.IsWhole) (arg8 : Memref sig .tc .vmem S32x4096 .f32) (harg8 : arg8.IsWhole) (arg9 : Memref sig .tc .vmem S32x4096 .f32) (harg9 : arg9.IsWhole) (hc0 : ¬cond0_0 i) (hc1 : cond0_1 i) (x0 : Vec F S32x1024 .bf16) (x1 : Vec F S1024x4096 .i32) (x2 : Vec F S8x4096 .f32) (x3 : Vec F S8x4096 .i32) (x4 : Vec F S1x4096 .f32) (x5 : Vec F S32x1 .f32) (xs0 : Vec F S32x4096 .f32) :
    sout0_C_0 c i arg2 harg2 arg3 harg3 arg4 harg4 arg5 harg5 arg6 harg6 arg7 harg7 arg8 harg8 arg9 harg9 hc0 hc1 x0 x1 x2 x3 x4 x5 xs0 = tile x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_cons_unit_zero (S := S32x4096) hz]
  simp only [View.readCov_cons_toLoadRect, View.readAt_eq_ld, harg2.read_unread, harg3.read_unread, harg4.read_unread,
    harg5.read_unread, harg6.read_unread, harg7.read_unread, harg9.read_unread, View.ld_unit_zero (S := S32x4096) hz, View.ld_unit_zero (S := S32x1) hz,
    View.ld_unit_zero (S := S1x4096) hz, GroupStep.pay1_eq, GroupStep.pay16_eq, GroupStep.pay15_eq, GroupStep.pay11_eq, GroupStep.pay10_eq,
    GroupStep.pay8_eq, GroupStep.pay7_eq]
  rfl

/-- and in the output block that accumulator rescaled by the rows' activation scales (x5), plus the bias (x4). -/
theorem output_last (c : Dev nD) (i : grid0.Coords) (arg2 : Memref sig .tc .vmem S32x1024 .bf16) (harg2 : arg2.IsWhole) (arg3 : Memref sig .tc .vmem S1024x4096 .i32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S1x4096 .f32) (harg6 : arg6.IsWhole) (arg7 : Memref sig .tc .vmem S32x1 .f32) (harg7 : arg7.IsWhole) (arg8 : Memref sig .tc .vmem S32x4096 .f32) (harg8 : arg8.IsWhole) (arg9 : Memref sig .tc .vmem S32x4096 .f32) (harg9 : arg9.IsWhole) (hc0 : ¬cond0_0 i) (hc1 : cond0_1 i) (x0 : Vec F S32x1024 .bf16) (x1 : Vec F S1024x4096 .i32) (x2 : Vec F S8x4096 .f32) (x3 : Vec F S8x4096 .i32) (x4 : Vec F S1x4096 .f32) (x5 : Vec F S32x1 .f32) (xs0 : Vec F S32x4096 .f32) :
    out0_C_6 c i arg2 harg2 arg3 harg3 arg4 harg4 arg5 harg5 arg6 harg6 arg7 harg7 arg8 harg8 arg9 harg9 hc0 hc1 x0 x1 x2 x3 x4 x5 xs0 = k0_pay2 (tile x0 x1 x2 x3 xs0) x5 x4 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S32x4096) hz]
  simp only [View.readCov_cons_toLoadRect, View.readAt_eq_ld, harg2.read_unread, harg3.read_unread, harg4.read_unread,
    harg5.read_unread, harg6.read_unread, harg7.read_unread, harg9.read_unread, View.ld_unit_zero (S := S32x4096) hz, View.ld_unit_zero (S := S32x1) hz,
    View.ld_unit_zero (S := S1x4096) hz, GroupStep.pay1_eq, GroupStep.pay16_eq, GroupStep.pay15_eq, GroupStep.pay11_eq, GroupStep.pay10_eq,
    GroupStep.pay8_eq, GroupStep.pay7_eq]
  rfl

end Cert.KernelIdeal.Pieces

end
-- ==== Proof.LibUnitLoads.lean ====
/-
  A block of consecutive rows and columns cut out of a matrix, read at an index.

  A load through a unit-stride rectangle of a [d0, d1] array, at offsets (o0, o1) and of extents [s0, s1], reads at its
  local index (l, n) the array's entry at (o0 + l, o1 + n). General: any extents, offsets and entry type.
-/
import Idealize.ShloMosaic.Lib.Pipeline.Value
import Idealize.ShloMosaic.Lib.ValueIdx

noncomputable section

namespace Cert.Lib.UnitLoads

open Idealize.ShloMosaic Idealize.ShloMosaic.ValueIdx

/-- The load's entry at (l, n) is the array's entry at (p, q), where p = o0 + l and q = o1 + n. -/
theorem ld_unit_apply {Val : EltTy → Type} {e : EltTy} {d0 d1 s0 s1 o0 o1 : Nat}
    (X : (⟨2, ![d0, d1]⟩ : Shape).Idx → Val e)
    (inb : ∀ a, (![o0, o1] : Fin 2 → Nat) a + (![s0, s1] : Fin 2 → Nat) a ≤ (⟨2, ![d0, d1]⟩ : Shape).size a)
    (l : Fin s0) (n : Fin s1) (p : Fin d0) (q : Fin d1) (hp : p.val = o0 + l.val) (hq : q.val = o1 + n.val) :
    View.ld X (Rect.unit (s := ⟨2, ![d0, d1]⟩) ![o0, o1] ![s0, s1] inb) (ix2 l n) = X (ix2 p q) := by
  show X ((Rect.unit (s := ⟨2, ![d0, d1]⟩) ![o0, o1] ![s0, s1] inb).idx (ix2 l n)) = X (ix2 p q)
  refine congrArg X (funext fun a => Fin.ext ?_)
  match a with
  | ⟨0, _⟩ => show o0 + 1 * l.val = p.val; omega
  | ⟨1, _⟩ => show o1 + 1 * n.val = q.val; omega

end Cert.Lib.UnitLoads

end
-- ==== Proof.TileValue.lean ====
/-
  A grid point's contribution, read at an index at the ideal values.

  On the blocks x0 (activations, [32, 1024]), x1 (codes, [1024, 4096]), x2 (scales, [8, 4096]) and x3 (zero points,
  [8, 4096]) of one grid point, group g's step adds to the accumulator's entry (r, n) the 128 products

      x0[r, 128 g + l] · ((x1[128 g + l, n] − x3[g, n]) · x2[g, n]),   l = 0 … 127

  (`blockGroupSum`), and the eight steps in order add the eight groups' sums (`tile_apply`): on the extended reals a
  chain of additions is the starting value plus the sum of the addends, by associativity alone.
-/
import proofs.«172037_j54468775248391_2_alg».proof.Proof.Pieces
import proofs.«172037_j54468775248391_2_alg».proof.Proof.LibUnitLoads

noncomputable section

namespace Cert.KernelIdeal.TileValue

open Cert.KernelIdeal Idealize.ShloMosaic Idealize.ShloMosaic.ValueIdx Cert.QuantGemm Cert.Lib.UnitLoads
open scoped BigOperators

variable (x0 : FVec Ideal S32x1024 .bf16) (x1 : Vec Ideal S1024x4096 .i32) (x2 : FVec Ideal S8x4096 .f32)
  (x3 : Vec Ideal S8x4096 .i32)

/-- Group g's 128 products at output entry (r, n), over one grid point's blocks. -/
def blockGroupSum (r : Fin 32) (n : Fin 4096) (g : Fin 8) : EReal :=
  ∑ l : Fin 128, x0 (ix2 r ⟨128 * g.val + l.val, by have := l.isLt; have := g.isLt; omega⟩)
    * ((code (x1 (ix2 ⟨128 * g.val + l.val, by have := l.isLt; have := g.isLt; omega⟩ n)) - code (x3 (ix2 g n))) * x2 (ix2 g n))

/-- One group's step at (r, n): the accumulator's entry plus that group's products. -/
theorem step_apply (g ok : Nat) (hok : ok = 128 * g) (hg : g < 8)
    (h1 : ∀ a, ![ok, 0] a + ![128, 4096] a ≤ S1024x4096.size a) (h3 : ∀ a, ![g, 0] a + ![1, 4096] a ≤ S8x4096.size a)
    (h0 : ∀ a, ![0, ok] a + ![32, 128] a ≤ S32x1024.size a) (acc : FVec Ideal S32x4096 .f32) (r : Fin 32) (n : Fin 4096) :
    Pieces.step (F := Ideal) g ok h1 h3 h0 x0 x1 x2 x3 acc (ix2 r n)
      = acc (ix2 r n) + blockGroupSum x0 x1 x2 x3 r n ⟨g, hg⟩ := by
  subst hok
  unfold Pieces.step
  refine (GroupStep.pay4_apply _ _ _ _ acc r n).trans ?_
  refine congrArg (fun z : EReal => acc (ix2 r n) + z) (Finset.sum_congr rfl fun l _ => ?_)
  have hl := l.isLt
  refine congrArg₂ (fun u v : EReal => u * v) ?_
    (congrArg₂ (fun u v : EReal => u * v) (congrArg₂ (fun u v : EReal => u - v) (congrArg code ?_) (congrArg code ?_)) ?_)
  · exact ld_unit_apply (Val := Elt Ideal) (e := .bf16) (d0 := 32) (d1 := 1024) x0 h0 r l r ⟨128 * g + l.val, by omega⟩
      (by show r.val = 0 + r.val; omega) rfl
  · exact ld_unit_apply (Val := Elt Ideal) (e := .i32) (d0 := 1024) (d1 := 4096) x1 h1 l n ⟨128 * g + l.val, by omega⟩ n rfl
      (by show n.val = 0 + n.val; omega)
  · exact ld_unit_apply (Val := Elt Ideal) (e := .i32) (d0 := 8) (d1 := 4096) x3 h3 (0 : Fin 1) n ⟨g, hg⟩ n rfl
      (by show n.val = 0 + n.val; omega)
  · exact ld_unit_apply (Val := Elt Ideal) (e := .f32) (d0 := 8) (d1 := 4096) x2 h3 (0 : Fin 1) n ⟨g, hg⟩ n rfl
      (by show n.val = 0 + n.val; omega)

/-- The eight steps at (r, n): the accumulator's entry plus the eight groups' products. -/
theorem tile_apply (acc : FVec Ideal S32x4096 .f32) (r : Fin 32) (n : Fin 4096) :
    Pieces.tile (F := Ideal) x0 x1 x2 x3 acc (ix2 r n) = acc (ix2 r n) + ∑ g : Fin 8, blockGroupSum x0 x1 x2 x3 r n g := by
  unfold Pieces.tile
  rw [step_apply x0 x1 x2 x3 7 896 rfl (by decide),
    step_apply x0 x1 x2 x3 6 768 rfl (by decide),
    step_apply x0 x1 x2 x3 5 640 rfl (by decide),
    step_apply x0 x1 x2 x3 4 512 rfl (by decide),
    step_apply x0 x1 x2 x3 3 384 rfl (by decide),
    step_apply x0 x1 x2 x3 2 256 rfl (by decide),
    step_apply x0 x1 x2 x3 1 128 rfl (by decide),
    step_apply x0 x1 x2 x3 0 0 rfl (by decide)]
  rw [Fin.sum_univ_eight]
  simp only [add_assoc]
  rfl

end Cert.KernelIdeal.TileValue

end
-- ==== Proof.BlockReads.lean ====
/-
  The blocks a grid point works on, read off the arrays.

  The grid has 16 points t = 8 j + k: j = t / 8 is the column tile (4096 columns of the output), k = t % 8 the position
  on the reduction axis (1024 contraction indices, eight groups). Each input window hands the body one block of its
  array at each point; entry (a, b) of a block is entry (index₀ · size₀ + a, index₁ · size₁ + b) of the array, where
  the block's index at the point is read off the printed index map once, over the whole grid.
-/
import proofs.«172037_j54468775248391_2_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- Where window 0's block sits at point t, decided over the grid. -/
theorem index0 : ∀ t : Fin cfg0.N, win0_0.index t 0 = 0 ∧ win0_0.index t 1 = t.val % 8 :=
  (by decide +kernel : ∀ t : Fin grid0.N, win0_0.index t 0 = 0 ∧ win0_0.index t 1 = t.val % 8)

/-- Reading the activations' block at a point: all 32 rows, columns 1024 k … 1024 k + 1023 (k the point's position on the reduction axis): entry (a, b) of the block is entry (p, q) of the array, p = 32·(0) + a, q = 1024·(t.val % 8) + b. -/
theorem act_block (c : Dev nD) (t : Fin cfg0.N) (a : Fin 32) (b : Fin 1024) (p : Fin 32) (q : Fin 8192)
    (hp : p.val = 32 * (0) + a.val) (hq : q.val = 1024 * (t.val % 8) + b.val) :
    (iblk m c 0 t : Vec F S32x1024 .bf16) (ix2 a b) = V m c main_v11 (ix2 p q) := by
  unfold iblk
  rw [View.read_apply]
  show V m c main_v11 _ = V m c main_v11 _
  refine congrArg (V m c main_v11) (funext fun ax => Fin.ext ?_)
  match ax with
  | ⟨0, _⟩ => show win0_0.index t 0 * 32 + 1 * a.val = p.val; rw [(index0 t).1]; omega
  | ⟨1, _⟩ => show win0_0.index t 1 * 1024 + 1 * b.val = q.val; rw [(index0 t).2]; omega

/-- Where window 1's block sits at point t, decided over the grid. -/
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Reading the weight codes' block: rows 1024 k …, columns 4096 j … (j the point's column tile): entry (a, b) of the block is entry (p, q) of the array, p = 1024·(t.val % 8) + a, q = 4096·(t.val / 8) + b. -/
theorem code_block (c : Dev nD) (t : Fin cfg0.N) (a : Fin 1024) (b : Fin 4096) (p : Fin 8192) (q : Fin 8192)
    (hp : p.val = 1024 * (t.val % 8) + a.val) (hq : q.val = 4096 * (t.val / 8) + b.val) :
    (iblk m c 1 t : Vec F S1024x4096 .i32) (ix2 a b) = V m c main_arg1 (ix2 p q) := by
  unfold iblk
  rw [View.read_apply]
  show V m c main_arg1 _ = V m c main_arg1 _
  refine congrArg (V m c main_arg1) (funext fun ax => Fin.ext ?_)
  match ax with
  | ⟨0, _⟩ => show win0_1.index t 0 * 1024 + 1 * a.val = p.val; rw [(index1 t).1]; omega
  | ⟨1, _⟩ => show win0_1.index t 1 * 4096 + 1 * b.val = q.val; rw [(index1 t).2]; omega

/-- Where window 2's block sits at point t, decided over the grid. -/
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Reading the scales' block: groups 8 k … 8 k + 7, columns 4096 j …: entry (a, b) of the block is entry (p, q) of the array, p = 8·(t.val % 8) + a, q = 4096·(t.val / 8) + b. -/
theorem scale_block (c : Dev nD) (t : Fin cfg0.N) (a : Fin 8) (b : Fin 4096) (p : Fin 64) (q : Fin 8192)
    (hp : p.val = 8 * (t.val % 8) + a.val) (hq : q.val = 4096 * (t.val / 8) + b.val) :
    (iblk m c 2 t : Vec F S8x4096 .f32) (ix2 a b) = V m c main_arg2 (ix2 p q) := by
  unfold iblk
  rw [View.read_apply]
  show V m c main_arg2 _ = V m c main_arg2 _
  refine congrArg (V m c main_arg2) (funext fun ax => Fin.ext ?_)
  match ax with
  | ⟨0, _⟩ => show win0_2.index t 0 * 8 + 1 * a.val = p.val; rw [(index2 t).1]; omega
  | ⟨1, _⟩ => show win0_2.index t 1 * 4096 + 1 * b.val = q.val; rw [(index2 t).2]; omega

/-- Where window 3's block sits at point t, decided over the grid. -/
theorem index3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

/-- Reading the zero points' block: groups 8 k … 8 k + 7, columns 4096 j …: entry (a, b) of the block is entry (p, q) of the array, p = 8·(t.val % 8) + a, q = 4096·(t.val / 8) + b. -/
theorem zero_block (c : Dev nD) (t : Fin cfg0.N) (a : Fin 8) (b : Fin 4096) (p : Fin 64) (q : Fin 8192)
    (hp : p.val = 8 * (t.val % 8) + a.val) (hq : q.val = 4096 * (t.val / 8) + b.val) :
    (iblk m c 3 t : Vec F S8x4096 .i32) (ix2 a b) = V m c main_arg3 (ix2 p q) := by
  unfold iblk
  rw [View.read_apply]
  show V m c main_arg3 _ = V m c main_arg3 _
  refine congrArg (V m c main_arg3) (funext fun ax => Fin.ext ?_)
  match ax with
  | ⟨0, _⟩ => show win0_3.index t 0 * 8 + 1 * a.val = p.val; rw [(index3 t).1]; omega
  | ⟨1, _⟩ => show win0_3.index t 1 * 4096 + 1 * b.val = q.val; rw [(index3 t).2]; omega

/-- Where window 4's block sits at point t, decided over the grid. -/
theorem index4 : ∀ t : Fin cfg0.N, win0_4.index t 0 = 0 ∧ win0_4.index t 1 = t.val / 8 :=
  (by decide +kernel : ∀ t : Fin grid0.N, win0_4.index t 0 = 0 ∧ win0_4.index t 1 = t.val / 8)

/-- Reading the bias row's block: columns 4096 j …: entry (a, b) of the block is entry (p, q) of the array, p = 1·(0) + a, q = 4096·(t.val / 8) + b. -/
theorem bias_block (c : Dev nD) (t : Fin cfg0.N) (a : Fin 1) (b : Fin 4096) (p : Fin 1) (q : Fin 8192)
    (hp : p.val = 1 * (0) + a.val) (hq : q.val = 4096 * (t.val / 8) + b.val) :
    (iblk m c 4 t : Vec F S1x4096 .f32) (ix2 a b) = V m c main_v12 (ix2 p q) := by
  unfold iblk
  rw [View.read_apply]
  show V m c main_v12 _ = V m c main_v12 _
  refine congrArg (V m c main_v12) (funext fun ax => Fin.ext ?_)
  match ax with
  | ⟨0, _⟩ => show win0_4.index t 0 * 1 + 1 * a.val = p.val; rw [(index4 t).1]; omega
  | ⟨1, _⟩ => show win0_4.index t 1 * 4096 + 1 * b.val = q.val; rw [(index4 t).2]; omega

/-- Where window 5's block sits at point t, decided over the grid. -/
theorem index5 : ∀ t : Fin cfg0.N, win0_5.index t 0 = 0 ∧ win0_5.index t 1 = 0 :=
  (by decide +kernel : ∀ t : Fin grid0.N, win0_5.index t 0 = 0 ∧ win0_5.index t 1 = 0)

/-- Reading the activation scales' block: the whole column, at every point: entry (a, b) of the block is entry (p, q) of the array, p = 32·(0) + a, q = 1·(0) + b. -/
theorem rowScale_block (c : Dev nD) (t : Fin cfg0.N) (a : Fin 32) (b : Fin 1) (p : Fin 32) (q : Fin 1)
    (hp : p.val = 32 * (0) + a.val) (hq : q.val = 1 * (0) + b.val) :
    (iblk m c 5 t : Vec F S32x1 .f32) (ix2 a b) = V m c main_v6 (ix2 p q) := by
  unfold iblk
  rw [View.read_apply]
  show V m c main_v6 _ = V m c main_v6 _
  refine congrArg (V m c main_v6) (funext fun ax => Fin.ext ?_)
  match ax with
  | ⟨0, _⟩ => show win0_5.index t 0 * 32 + 1 * a.val = p.val; rw [(index5 t).1]; omega
  | ⟨1, _⟩ => show win0_5.index t 1 * 1 + 1 * b.val = q.val; rw [(index5 t).2]; omega

end Cert.KernelIdeal.BlockReads

end
-- ==== Proof.Accum.lean ====
/-
  The accumulator after each grid point, and the output block the last point of a column tile writes.

  Take the arrays as the kernel finds them: the quantized activations a, the codes q, the scales and zero points. Point
  t = 8 j + k works on column tile j and on the contraction indices 1024 k … 1024 k + 1023, that is on the groups
  8 k … 8 k + 7. Read on the arrays, the products its group g adds at entry (r, n) of the tile are exactly group 8 k + g's
  terms of the contraction at output (r, 4096 j + n) (`point_group`). So, by induction on the point, the accumulator after
  point t holds at (r, n) the running total of that contraction over the first 8 (k + 1) groups (`scratch_eq`): the first
  point of a tile starts from the reset's zero, every other point from what the point before — same tile, k − 1 — left.
  After k = 7 all 64 groups are in, the total is the whole contraction, and the block the last point writes is the
  specification's result at the tile's columns (`output_eq`).
-/
import proofs.«172037_j54468775248391_2_alg».proof.Proof.TileValue
import proofs.«172037_j54468775248391_2_alg».proof.Proof.BlockReads

noncomputable section

namespace Cert.KernelIdeal.Accum

open Cert.KernelIdeal Cert.KernelIdeal.Gen Idealize.ShloMosaic Idealize.ShloMosaic.TcCoe Idealize.ShloMosaic.ValueIdx
open Idealize.SL.Sem Cert.QuantGemm
open scoped BigOperators

variable (m : (ℓ : Loc nD τ sig) → Buf (Elt Ideal) ℓ)

/-- The arrays as the kernel finds them, typed as the specification takes them. -/
abbrev actA (c : Dev nD) : A32x8192.Idx → EReal := V m c main_v11
abbrev codeA (c : Dev nD) : A8192x8192.Idx → BitVec 32 := V m c main_arg1
abbrev scaleA (c : Dev nD) : A64x8192.Idx → EReal := V m c main_arg2
abbrev zeroA (c : Dev nD) : A64x8192.Idx → BitVec 32 := V m c main_arg3
abbrev rowScaleA (c : Dev nD) : A32x1.Idx → EReal := V m c main_v6
/-- The bias, read off the one-row matrix the kernel is handed. -/
abbrev biasA (c : Dev nD) : A8192.Idx → EReal := fun j => V m c main_v12 (ix2 (0 : Fin 1) (j 0))

/-- The output column of column q of point t's tile: 4096 (t / 8) + q. -/
def col (t : Fin cfg0.N) (q : Fin 4096) : Fin 8192 :=
  ⟨4096 * (t.val / 8) + q.val, by have := t.isLt; have hN : cfg0.N = 16 := N_0; have := q.isLt; omega⟩

/-- Group g of point t, read on the arrays, is group 8 (t % 8) + g of the contraction at the tile's column. -/
theorem point_group (c : Dev nD) (t : Fin cfg0.N) (r : Fin 32) (q : Fin 4096) (g : Fin 8) :
    TileValue.blockGroupSum (iblk m c 0 t) (iblk m c 1 t) (iblk m c 2 t) (iblk m c 3 t) r q g
      = groupSum (actA m c) (codeA m c) (scaleA m c) (zeroA m c) r (col t q) (8 * (t.val % 8) + g.val) := by
  have hN : cfg0.N = 16 := N_0
  have ht := t.isLt
  have hg := g.isLt
  have hq := q.isLt
  have hG : 8 * (t.val % 8) + g.val < 64 := by omega
  rw [groupSum_eq _ _ _ _ _ _ (8 * (t.val % 8) + g.val) hG]
  unfold TileValue.blockGroupSum
  refine Finset.sum_congr rfl fun l _ => ?_
  have hl := l.isLt
  refine congrArg₂ (fun u v : EReal => u * v) ?_
    (congrArg₂ (fun u v : EReal => u * v) (congrArg₂ (fun u v : EReal => u - v) (congrArg code ?_) (congrArg code ?_)) ?_)
  · exact BlockReads.act_block m c t r ⟨128 * g.val + l.val, by omega⟩ r ⟨128 * (8 * (t.val % 8) + g.val) + l.val, by omega⟩
      (by show r.val = 32 * 0 + r.val; omega)
      (by show 128 * (8 * (t.val % 8) + g.val) + l.val = 1024 * (t.val % 8) + (128 * g.val + l.val); omega)
  · exact BlockReads.code_block m c t ⟨128 * g.val + l.val, by omega⟩ q ⟨128 * (8 * (t.val % 8) + g.val) + l.val, by omega⟩ (col t q)
      (by show 128 * (8 * (t.val % 8) + g.val) + l.val = 1024 * (t.val % 8) + (128 * g.val + l.val); omega)
      (by show 4096 * (t.val / 8) + q.val = 4096 * (t.val / 8) + q.val; rfl)
  · exact BlockReads.zero_block m c t g q ⟨8 * (t.val % 8) + g.val, hG⟩ (col t q)
      (by show 8 * (t.val % 8) + g.val = 8 * (t.val % 8) + g.val; rfl)
      (by show 4096 * (t.val / 8) + q.val = 4096 * (t.val / 8) + q.val; rfl)
  · exact BlockReads.scale_block m c t g q ⟨8 * (t.val % 8) + g.val, hG⟩ (col t q)
      (by show 8 * (t.val % 8) + g.val = 8 * (t.val % 8) + g.val; rfl)
      (by show 4096 * (t.val / 8) + q.val = 4096 * (t.val / 8) + q.val; rfl)

/-- A point's eight group steps over an accumulator, at (r, q): its entry plus the point's eight groups of the contraction. -/
theorem tile_point (c : Dev nD) (t : Fin cfg0.N) (acc : FVec Ideal S32x4096 .f32) (r : Fin 32) (q : Fin 4096) :
    Pieces.tile (F := Ideal) (iblk m c 0 t) (iblk m c 1 t) (iblk m c 2 t) (iblk m c 3 t) acc (ix2 r q)
      = acc (ix2 r q) + ∑ g : Fin 8, groupSum (actA m c) (codeA m c) (scaleA m c) (zeroA m c) r (col t q) (8 * (t.val % 8) + g.val) :=
  (TileValue.tile_apply (iblk m c 0 t) (iblk m c 1 t) (iblk m c 2 t) (iblk m c 3 t) acc r q).trans
    (congrArg (fun z : EReal => acc (ix2 r q) + z) (Finset.sum_congr rfl fun g _ => point_group m c t r q g))

/-- The accumulator after point n, at (r, q): the running total over the first 8 (n % 8 + 1) groups of the contraction at
    the tile's column. -/
theorem scratch_eq (c : Dev nD) (n : ℕ) : ∀ (h : n < cfg0.N) (r : Fin 32) (q : Fin 4096),
    (outsAt0 m c n h).2 (ix2 r q) = partialSum (actA m c) (codeA m c) (scaleA m c) (zeroA m c) r (col (⟨n, h⟩ : Fin cfg0.N) q) (8 * (n % 8) + 8) := by
  induction n using Nat.strong_induction_on with
  | _ n ih =>
    intro h r q
    have hN : cfg0.N = 16 := N_0
    rw [partialSum_add_eight]
    by_cases h0 : n % 8 = 0
    · have h1 : ¬n % 8 = 7 := by omega
      have e := outsAt0_A m c (⟨n, h⟩ : Fin cfg0.N) h0 h1
      have e2 := congrArg Prod.snd e
      dsimp only at e2
      refine (congrFun e2 (ix2 r q)).trans ?_
      refine (congrFun (Pieces.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N))) (ix2 r q)).trans ?_
      refine (tile_point m c (⟨n, h⟩ : Fin cfg0.N) k0_pay3 r q).trans ?_
      refine congrArg (fun z : EReal => z + _) ?_
      refine (GroupStep.pay3_apply (ix2 r q)).trans ?_
      have hk : 8 * (n % 8) = 0 := by omega
      rw [hk]
      exact (partialSum_zero ..).symm
    · by_cases h1 : n % 8 = 7
      · have e := outsAt0_C m c (⟨n, h⟩ : Fin cfg0.N) h0 h1
        have e2 := congrArg Prod.snd e
        dsimp only at e2
        refine (congrFun e2 (ix2 r q)).trans ?_
        refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (outsAt0 m c (n - 1) (Nat.lt_of_le_of_lt (Nat.sub_le _ _) h)).2) (ix2 r q)).trans ?_
        refine (tile_point m c (⟨n, h⟩ : Fin cfg0.N) (outsAt0 m c (n - 1) (Nat.lt_of_le_of_lt (Nat.sub_le _ _) h)).2 r q).trans ?_
        refine congrArg (fun z : EReal => z + _) ?_
        have hlt : n - 1 < cfg0.N := Nat.lt_of_le_of_lt (Nat.sub_le _ _) h
        refine (ih (n - 1) (by omega) hlt r q).trans ?_
        have hc : col ⟨n - 1, hlt⟩ q = col (⟨n, h⟩ : Fin cfg0.N) q := Fin.ext (by
          show 4096 * ((n - 1) / 8) + q.val = 4096 * (n / 8) + q.val
          omega)
        have hk : 8 * ((n - 1) % 8) + 8 = 8 * (n % 8) := by omega
        rw [hc, hk]
      · have e := outsAt0_B m c (⟨n, h⟩ : Fin cfg0.N) h0 h1
        have e2 := congrArg Prod.snd e
        dsimp only at e2
        refine (congrFun e2 (ix2 r q)).trans ?_
        refine (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (outsAt0 m c (n - 1) (Nat.lt_of_le_of_lt (Nat.sub_le _ _) h)).2) (ix2 r q)).trans ?_
        refine (tile_point m c (⟨n, h⟩ : Fin cfg0.N) (outsAt0 m c (n - 1) (Nat.lt_of_le_of_lt (Nat.sub_le _ _) h)).2 r q).trans ?_
        refine congrArg (fun z : EReal => z + _) ?_
        have hlt : n - 1 < cfg0.N := Nat.lt_of_le_of_lt (Nat.sub_le _ _) h
        refine (ih (n - 1) (by omega) hlt r q).trans ?_
        have hc : col ⟨n - 1, hlt⟩ q = col (⟨n, h⟩ : Fin cfg0.N) q := Fin.ext (by
          show 4096 * ((n - 1) / 8) + q.val = 4096 * (n / 8) + q.val
          omega)
        have hk : 8 * ((n - 1) % 8) + 8 = 8 * (n % 8) := by omega
        rw [hc, hk]

/-- The block the last point of a column tile writes, at (r, q): the specification's result at (r, the tile's column). -/
theorem output_eq (c : Dev nD) (t : Fin cfg0.N) (h1 : t.val % 8 = 7) (r : Fin 32) (q : Fin 4096) :
    (outsAt0 m c t.val t.isLt).1 (ix2 r q)
      = out (actA m c) (rowScaleA m c) (codeA m c) (scaleA m c) (zeroA m c) (biasA m c) (ix2 r (col t q)) := by
  have hN : cfg0.N = 16 := N_0
  have h0 : ¬t.val % 8 = 0 := by omega
  have e := outsAt0_C m c t h0 h1
  have e1 := congrArg Prod.fst e
  dsimp only at e1
  have e2 := congrArg Prod.snd e
  dsimp only at e2
  have hs : Pieces.tile (F := Ideal) (iblk m c 0 t) (iblk m c 1 t) (iblk m c 2 t) (iblk m c 3 t) (outsAt0 m c (t.val - 1) (Nat.lt_of_le_of_lt (Nat.sub_le _ _) t.isLt)).2 (ix2 r q)
      = ∑ k : Fin 8192, term (actA m c) (codeA m c) (scaleA m c) (zeroA m c) r (col t q) k := by
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r q)).symm.trans ?_
    refine (congrFun e2 (ix2 r q)).symm.trans ?_
    refine (scratch_eq m c t.val t.isLt r q).trans ?_
    rw [h1]
    exact partialSum_all ..
  refine (congrFun e1 (ix2 r q)).trans ?_
  refine (congrFun (Pieces.output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix2 r q)).trans ?_
  refine (GroupStep.pay2_apply _ _ _ r q).trans ?_
  show _ = (∑ k : Fin 8192, term (actA m c) (codeA m c) (scaleA m c) (zeroA m c) r (col t q) k) * rowScaleA m c (ix2 r 0) + V m c main_v12 (ix2 (0 : Fin 1) (col t q))
  refine congrArg₂ (fun u v : EReal => u + v) (congrArg₂ (fun u v : EReal => u * v) hs ?_) ?_
  · exact BlockReads.rowScale_block m c t r 0 r 0 (by show r.val = 32 * 0 + r.val; omega) rfl
  · exact BlockReads.bias_block m c t 0 q 0 (col t q) rfl
      (by show 4096 * (t.val / 8) + q.val = 4096 * (t.val / 8) + q.val; rfl)

end Cert.KernelIdeal.Accum

end
-- ==== Proof.HostHead.lean ====
/-
  What the host operations before the kernel hand it, at the ideal values.

  Before the kernel is launched the program quantizes the activations on the host: per row the largest absolute
  value, floored at 1e-8 and divided by 127, is the row's scale s; x / s, rounded to the nearest integer (ties to even)
  and clipped to [−127, 127], is the quantized activation, which is then narrowed to a 16-bit float — the identity at
  the ideal values. The reference performs the very same operations on x, so the two arrays the kernel receives (the
  quantized activations and the scales) are the reference's own stages of x: they are carried as those two functions of
  x and never opened. The bias reaches the kernel as the one-row matrix [1, 8192] of the vector [8192].
-/
import proofs.«172037_j54468775248391_2_alg».proof.Proof.Gen.KernelIdeal.Frame
import proofs.«172037_j54468775248391_2_alg».proof.Proof.Gen.ReferenceIdeal.Read
import Idealize.ShloMosaic.Lib.StableHlo.Run

noncomputable section

namespace Cert.KernelIdeal.HostHead

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The activations the kernel receives are the reference's quantized activations of x. -/
theorem act_eq (c : Dev nD) :
    (V m c main_v11 : S32x8192.Idx → EReal)
      = Cert.ReferenceIdeal.Read.val_main_v10 (F := Ideal) (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The row scales the kernel receives are the reference's row scales of x. -/
theorem scale_eq (c : Dev nD) :
    (V m c main_v6 : S32x1.Idx → EReal)
      = Cert.ReferenceIdeal.Read.val_main_v6 (F := Ideal) (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The bias the kernel receives is the bias vector as a one-row matrix. -/
theorem bias_eq (c : Dev nD) :
    (V m c main_v12 : S1x8192.Idx → EReal)
      = shapeCast S1x8192 (m ((c : Thread nD τ).loc main_arg4)) shapeCasts_S8192_S1x8192 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.HostHead

end
-- ==== Proof.Result.lean ====
/-
  The kernel's result array after the run.

  Only the last point of each column tile (k = 7) writes the output window back, and the two write-backs — tile 0's
  columns 0 … 4095 and tile 1's columns 4096 … 8191 — cover the [32, 8192] result array. What such a point writes is the
  specification's result on its tile's columns, so the array ends holding the specification's result of the arrays the
  kernel found; and those are the reference's quantized activations and activation scales of x, the codes, scales and
  zero points as launched, and the bias vector (read back from its one-row matrix).
-/
import proofs.«172037_j54468775248391_2_alg».proof.Proof.Accum
import proofs.«172037_j54468775248391_2_alg».proof.Proof.HostHead
import proofs.«172037_j54468775248391_2_alg».proof.Proof.Gen.KernelIdeal.Value

noncomputable section

namespace Cert.KernelIdeal.Result

open Cert.KernelIdeal Cert.KernelIdeal.Gen Idealize.ShloMosaic Idealize.ShloMosaic.TcCoe Idealize.ShloMosaic.ValueIdx
open Idealize.SL.Sem Cert.QuantGemm
open Idealize.ShloMosaic.Pipeline (Dat)

variable (m : (ℓ : Loc nD τ sig) → Buf (Elt Ideal) ℓ) (ρ : Dev nD → PrngReg)

/-- The specification's result of the arrays the kernel finds. -/
abbrev found (c : Dev nD) : S32x8192.Idx → EReal :=
  out (Accum.actA m c) (Accum.rowScaleA m c) (Accum.codeA m c) (Accum.scaleA m c) (Accum.zeroA m c) (Accum.biasA m c)

/-- The specification's result of the launch memory: the reference's quantized activations and activation scales of
    x, and the other four arguments as they are. -/
abbrev result (c : Dev nD) : S32x8192.Idx → EReal :=
  out (Cert.ReferenceIdeal.Read.val_main_v10 (F := Ideal) (m ((c : Thread nD τ).loc main_arg0)))
    (Cert.ReferenceIdeal.Read.val_main_v6 (F := Ideal) (m ((c : Thread nD τ).loc main_arg0)))
    (m ((c : Thread nD τ).loc main_arg1)) (m ((c : Thread nD τ).loc main_arg2)) (m ((c : Thread nD τ).loc main_arg3)) (m ((c : Thread nD τ).loc main_arg4))

/-- The output window's block at point t is all 32 rows of column tile t / 8. -/
theorem index6 : ∀ t : Fin cfg0.N, win0_6.index t 0 = 0 ∧ win0_6.index t 1 = t.val / 8 :=
  (by decide +kernel : ∀ t : Fin grid0.N, win0_6.index t 0 = 0 ∧ win0_6.index t 1 = t.val / 8)

/-- What a write-back point writes is its block of the specification's result. -/
theorem flushed_eq (c : Dev nD) (t : Fin cfg0.N) (hf : (cfg0.win 6).flush t = true) :
    (dats m 0 c).flushed 6 t = ((cfg0.win 6).blk t).view.read (Elt Ideal) (found m c) := by
  have h7 : t.val % 8 = 7 := (flush0_6 t).mp hf
  rw [Cert.KernelIdeal.Value.flushed6 (F := Ideal) m c t]
  funext y
  obtain ⟨r, q, rfl⟩ : ∃ (r : Fin 32) (q : Fin 4096), y = ix2 r q :=
    ⟨(y : S32x4096.Idx) 0, (y : S32x4096.Idx) 1, eq_ix2 (n0 := 32) (n1 := 4096) y⟩
  rw [View.read_apply]
  show (outsAt0 m c t.val t.isLt).1 (ix2 r q) = found m c (((cfg0.win 6).blk t).view.emb (ix2 r q))
  refine (Accum.output_eq m c t h7 r q).trans ?_
  refine congrArg (found m c) (funext fun a => Fin.ext ?_)
  match a with
  | ⟨0, _⟩ => show r.val = win0_6.index t 0 * 32 + 1 * r.val; rw [(index6 t).1]; omega
  | ⟨1, _⟩ => show 4096 * (t.val / 8) + q.val = win0_6.index t 1 * 4096 + 1 * q.val; rw [(index6 t).2]; omega

/-- An index is in point t's block when each coordinate is in the block's range on its axis. -/
theorem mem_blk (t : Fin cfg0.N) (i : S32x8192.Idx) :
    i ∈ ((cfg0.win 6).blk t).view.set ↔ ∀ a : Fin 2, win0_6.index t a * S32x4096.size a ≤ (i a).val
      ∧ (i a).val < win0_6.index t a * S32x4096.size a + S32x4096.size a := by
  show i ∈ ((View.whole main_v13).slice (win0_6.rect t)).set ↔ _
  rw [View.set_slice_whole, Rect.mem_set_unit]
  exact Iff.rfl

/-- Every entry of the result array is in the block some write-back point writes: column n is written by the last point
    of tile n / 4096. -/
theorem cover (i : S32x8192.Idx) : ∃ t : Fin cfg0.N, (cfg0.win 6).flush t = true ∧ i ∈ ((cfg0.win 6).blk t).view.set := by
  have hN : cfg0.N = 16 := N_0
  have h0 : (i 0).val < 32 := (i 0).isLt
  have h1 : (i 1).val < 8192 := (i 1).isLt
  obtain ⟨t, ht⟩ : ∃ t : Fin cfg0.N, t.val = 8 * ((i 1).val / 4096) + 7 := ⟨⟨8 * ((i 1).val / 4096) + 7, by omega⟩, rfl⟩
  refine ⟨t, (flush0_6 t).mpr (by omega), ?_⟩
  rw [mem_blk]
  intro a
  match a with
  | ⟨0, _⟩ =>
    show win0_6.index t 0 * 32 ≤ (i 0).val ∧ (i 0).val < win0_6.index t 0 * 32 + 32
    rw [(index6 t).1]; omega
  | ⟨1, _⟩ =>
    show win0_6.index t 1 * 4096 ≤ (i 1).val ∧ (i 1).val < win0_6.index t 1 * 4096 + 4096
    rw [(index6 t).2]; omega

/-- The result array after the run is the specification's result of the arrays the kernel found. -/
theorem final (c : Dev nD) : (dats m 0 c).arrAt 6 cfg0.N = found m c :=
  (dats m 0 c).arrAt_eq_of_cover 6 (found m c) (flushed_eq m c) cover

/-- The arrays the kernel found, in terms of the launch memory. -/
theorem found_eq (c : Dev nD) : found m c = result m c := by
  have ha : Accum.actA m c = Cert.ReferenceIdeal.Read.val_main_v10 (F := Ideal) (m ((c : Thread nD τ).loc main_arg0)) := HostHead.act_eq m c
  have hs : Accum.rowScaleA m c = Cert.ReferenceIdeal.Read.val_main_v6 (F := Ideal) (m ((c : Thread nD τ).loc main_arg0)) := HostHead.scale_eq m c
  have hq : Accum.codeA m c = (m ((c : Thread nD τ).loc main_arg1)) := V_main_arg1 m c
  have hsc : Accum.scaleA m c = (m ((c : Thread nD τ).loc main_arg2)) := V_main_arg2 m c
  have hz : Accum.zeroA m c = (m ((c : Thread nD τ).loc main_arg3)) := V_main_arg3 m c
  have hb : Accum.biasA m c = (m ((c : Thread nD τ).loc main_arg4)) := funext fun j =>
    (congrFun (HostHead.bias_eq m c) (ix2 (0 : Fin 1) (j 0))).trans
      ((Cert.Lib.Rows.shapeCast_vec_row_apply (C := 8192) _ _ (j 0)).trans (congrArg (m ((c : Thread nD τ).loc main_arg4)) (eq_ix1 j).symm))
  show out (Accum.actA m c) (Accum.rowScaleA m c) (Accum.codeA m c) (Accum.scaleA m c) (Accum.zeroA m c) (Accum.biasA m c) = _
  rw [ha, hs, hq, hsc, hz, hb]

/-- The run, read: the result array ends at the specification's result of the launch memory, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (Cert.KernelIdeal.Value.run_blocks (F := Ideal) m ρ)

end Cert.KernelIdeal.Result

end
-- ==== Proof.RefValue.lean ====
/-
  The reference computes the specification.

  The reference dequantizes the whole weight matrix at once: the codes reshaped to [64, 128, 8192] (group, row in group,
  column), the zero points and scales of each group broadcast over the group's 128 rows, (q − zp) · sc, and the result
  reshaped back to [8192, 8192]. Reshaping there and back returns entry (k, n) to itself, and the group of row k is
  k / 128, so entry (k, n) of that matrix is the specification's weight (`weight_eq`). Then one matrix product with the
  quantized activations — at the ideal values the sum over k of the products —, the rows rescaled by the activation
  scales, plus the bias (`result_eq`). The quantized activations and the scales are kept as the reference's own stages
  of x; they are never opened.
-/
import proofs.«172037_j54468775248391_2_alg».proof.Proof.Gen.ReferenceIdeal.Read
import proofs.«172037_j54468775248391_2_alg».proof.Proof.Spec

noncomputable section

namespace Cert.ReferenceIdeal.RefValue

open Cert.ReferenceIdeal Cert.ReferenceIdeal.Read Idealize.ShloMosaic Idealize.ShloMosaic.ValueIdx Cert.QuantGemm
open scoped BigOperators

variable (x0 : (⟨S32x8192, .f32⟩ : BufTy).Contents (Elt Ideal)) (x1 : (⟨S8192x8192, .i32⟩ : BufTy).Contents (Elt Ideal))
  (x2 : (⟨S64x8192, .f32⟩ : BufTy).Contents (Elt Ideal)) (x3 : (⟨S64x8192, .i32⟩ : BufTy).Contents (Elt Ideal))
  (x4 : (⟨S8192, .f32⟩ : BufTy).Contents (Elt Ideal))

/-- Entry (k, n) of the dequantized weight matrix is (q[k, n] − zp[k / 128, n]) · sc[k / 128, n]. -/
theorem weight_eq (k n : Fin 8192) : val_main_v20 (F := Ideal) x1 x2 x3 (ix2 k n) = weight x1 x2 x3 k n := by
  have hk := k.isLt
  have hn := n.isLt
  rw [val_main_v20_apply, val_main_v19_apply, val_main_v16_apply, val_main_v12_apply, val_main_v11_apply, val_main_v15_apply,
    val_main_v14_apply, val_main_v13_apply, val_main_v18_apply, val_main_v17_apply]
  have e1 : idx_main_v11 (idx_main_v20 (ix2 k n)) = ix2 k n := funext fun a => Fin.ext (by
    match a with
    | ⟨0, _⟩ =>
      show (((k.val * 8192 + n.val) / 1048576 * 128 + (k.val * 8192 + n.val) / 8192 % 128) * 8192 + (k.val * 8192 + n.val) % 8192) / 8192 = k.val
      omega
    | ⟨1, _⟩ =>
      show (((k.val * 8192 + n.val) / 1048576 * 128 + (k.val * 8192 + n.val) / 8192 % 128) * 8192 + (k.val * 8192 + n.val) % 8192) % 8192 = n.val
      omega)
  have e3 : idx_main_v13 (idx_main_v15 (idx_main_v20 (ix2 k n))) = ix2 (grp k) n := funext fun a => Fin.ext (by
    match a with
    | ⟨0, _⟩ => show (k.val * 8192 + n.val) / 1048576 = k.val / 128; omega
    | ⟨1, _⟩ => show (k.val * 8192 + n.val) % 8192 = n.val; omega)
  have e2 : idx_main_v17 (idx_main_v18 (idx_main_v20 (ix2 k n))) = ix2 (grp k) n := funext fun a => Fin.ext (by
    match a with
    | ⟨0, _⟩ => show (k.val * 8192 + n.val) / 1048576 = k.val / 128; omega
    | ⟨1, _⟩ => show (k.val * 8192 + n.val) % 8192 = n.val; omega)
  rw [e1, e3, e2]
  rfl

/-- The reference's result is the specification's, of its own quantized activations and activation scales of x. -/
theorem result_eq :
    val_main_v26 (F := Ideal) x0 x1 x2 x3 x4
      = out (val_main_v10 (F := Ideal) x0) (val_main_v6 (F := Ideal) x0) x1 x2 x3 x4 := by
  funext i
  obtain ⟨r, n, rfl⟩ : ∃ (r : Fin 32) (n : Fin 8192), i = ix2 r n := ⟨i 0, i 1, eq_ix2 i⟩
  rw [val_main_v26_apply, val_main_v23_apply, val_main_v21_apply, val_main_v22_apply, val_main_v25_apply, val_main_v24_apply]
  have el : ∀ k : Fin 8192, lidx_main_v21 (ix2 r n) k = ix2 r k := fun k => funext fun a => Fin.ext (by
    match a with
    | ⟨0, _⟩ => rfl
    | ⟨1, _⟩ => rfl)
  have er : ∀ k : Fin 8192, ridx_main_v21 (ix2 r n) k = ix2 k n := fun k => funext fun a => Fin.ext (by
    match a with
    | ⟨0, _⟩ => rfl
    | ⟨1, _⟩ => rfl)
  have e22 : idx_main_v22 (ix2 r n) = ix2 r (0 : Fin 1) := funext fun a => Fin.ext (by
    match a with
    | ⟨0, _⟩ => rfl
    | ⟨1, _⟩ => rfl)
  have e24 : idx_main_v24 (idx_main_v25 (ix2 r n)) = ix1 n := funext fun a => Fin.ext (by
    match a with
    | ⟨0, _⟩ => rfl)
  rw [e22, e24]
  show (∑ k : Fin 8192, val_main_v10 (F := Ideal) x0 (lidx_main_v21 (ix2 r n) k) * val_main_v20 (F := Ideal) x1 x2 x3 (ridx_main_v21 (ix2 r n) k))
      * val_main_v6 (F := Ideal) x0 (ix2 r 0) + x4 (ix1 n)
    = (∑ k : Fin 8192, term (val_main_v10 (F := Ideal) x0) x1 x2 x3 r n k) * val_main_v6 (F := Ideal) x0 (ix2 r 0) + x4 (ix1 n)
  refine congrArg (fun z : EReal => z * val_main_v6 (F := Ideal) x0 (ix2 r 0) + x4 (ix1 n)) (Finset.sum_congr rfl fun k _ => ?_)
  rw [el, er, weight_eq]
  rfl

end Cert.ReferenceIdeal.RefValue

end
-- ==== Proof.lean ====
/-
  A 4-bit-weight, 8-bit-activation linear layer: the kernel against its reference, on the extended reals.

  Both programs first quantize the activations x [32, 8192] per row on the host — the row's largest absolute value,
  floored at 1e-8 and divided by 127, is its scale; x divided by it, rounded and clipped to [−127, 127], its codes — by
  the same operations, so that part is one function of x on both sides and is never opened. The weights are 4-bit codes
  q [8192, 8192] with a scale and a zero point per group of 128 rows and per column; the result is

      out[r, n] = (∑ₖ a[r, k] · (q[k, n] − zp[k / 128, n]) · sc[k / 128, n]) · s[r] + bias[n].

  The reference dequantizes the whole weight matrix and takes one matrix product (Proof/RefValue.lean). The kernel walks
  a grid of 2 column tiles by 8 steps along k; at each step it dequantizes eight groups of 128 rows, one after the other,
  multiplies each by the matching 128 columns of the activations on the matrix unit and adds the product into an
  accumulator that is zeroed at a tile's first step and carried to its last, where the accumulator is rescaled by the
  row scales, the bias is added, and the tile is written (Proof/GroupStep.lean, Pieces.lean, TileValue.lean: a step's
  value; BlockReads.lean, HostHead.lean: what the blocks and the host-computed arrays are; Accum.lean: the accumulator
  after every step, by induction on the step; Result.lean: the array after the run). At the ideal values a conversion
  of an integer code to a 16-bit or a 32-bit float is the same real number, narrowing a float is the identity, and a
  matrix product into a zero accumulator is a sum of products; so the two programs compute the same sum, the kernel in
  64 blocks of 128 terms. Regrouping a sum needs only that addition on the extended reals is associative and
  commutative (Proof/Spec.lean), so the inputs' finiteness is never used.

  The three frames are the generated ones (the reference's is its generated run with the result dropped), and the ideal
  pass rewrote nothing in the kernel, so there is nothing to preserve.
-/
import proofs.«172037_j54468775248391_2_alg».proof.Defs
import proofs.«172037_j54468775248391_2_alg».proof.Proof.Gen.Kernel
import proofs.«172037_j54468775248391_2_alg».proof.Proof.Gen.Kernel.Skeleton
import proofs.«172037_j54468775248391_2_alg».proof.Proof.Gen.Kernel.Launch
import proofs.«172037_j54468775248391_2_alg».proof.Proof.Gen.Kernel.Points
import proofs.«172037_j54468775248391_2_alg».proof.Proof.Gen.Kernel.Frame
import proofs.«172037_j54468775248391_2_alg».proof.Proof.Gen.KernelIdeal
import proofs.«172037_j54468775248391_2_alg».proof.Proof.Gen.KernelIdeal.Skeleton
import proofs.«172037_j54468775248391_2_alg».proof.Proof.Gen.KernelIdeal.Launch
import proofs.«172037_j54468775248391_2_alg».proof.Proof.Gen.KernelIdeal.Points
import proofs.«172037_j54468775248391_2_alg».proof.Proof.Gen.KernelIdeal.Frame
import proofs.«172037_j54468775248391_2_alg».proof.Proof.Gen.ReferenceIdeal
import proofs.«172037_j54468775248391_2_alg».proof.Proof.Gen.Pre_finite_inputs
import proofs.«172037_j54468775248391_2_alg».proof.Proof.Gen.KernelIdeal.Value
import proofs.«172037_j54468775248391_2_alg».proof.Proof.Gen.ReferenceIdeal.Run
import proofs.«172037_j54468775248391_2_alg».proof.Proof.Gen.ReferenceIdeal.Read
import proofs.«172037_j54468775248391_2_alg».proof.Proof.Result
import proofs.«172037_j54468775248391_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with what the result holds dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- Both runs end with the result array at the specification's result of the launch memory: the kernel's by the
    induction over its grid, the reference's by reading its operations; the memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
